-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000x8x8 : Shape := ⟨3, ![800000, 8, 8]⟩
abbrev S8x8 : Shape := ⟨2, ![8, 8]⟩
abbrev S_ : Shape := ⟨0, ![]⟩

class Facts : Prop where
  bcast_S_S800000x8x8 : S_.BroadcastsInDim S800000x8x8 (![] : Fin 0 → Fin S800000x8x8.rank)
  reducesTo_S800000x8x8_S_d0_1_2 : S800000x8x8.ReducesTo [0, 1, 2] S_
  h_S_ : 0 < S_.numel
  bcast_S_S8x8 : S_.BroadcastsInDim S8x8 (![] : Fin 0 → Fin S8x8.rank)
  reducesTo_S8x8_S_d0_1 : S8x8.ReducesTo [0, 1] S_

variable [Facts]

def fn {F : FTy → Type} [FloatOps F] (main_arg0 : FVec F S800000x8x8 .f32) (main_arg1 : FVec F S8x8 .f32) : IVec S_ 1 :=
  let main_v0 : FVec F S800000x8x8 .f32 := Host.absf main_arg0
  let main_cst : FVec F S_ .f32 := constant S_ .f32 0x7F800000#32
  let main_v1 : FVec F S800000x8x8 .f32 := broadcastInDim S800000x8x8 ![] bcast_S_S800000x8x8 main_cst
  let main_v2 : IVec S800000x8x8 1 := cmpf .olt main_v0 main_v1
  let main_c : IVec S_ 1 := constantI S_ 1 1#1
  let main_v3 : IVec S_ 1 := (fun x v => Host.reduce IntOp.andi x v reducesTo_S800000x8x8_S_d0_1_2 h_S_) main_v2 main_c
  let main_v4 : FVec F S8x8 .f32 := Host.absf main_arg1
  let main_cst_0 : FVec F S_ .f32 := constant S_ .f32 0x7F800000#32
  let main_v5 : FVec F S8x8 .f32 := broadcastInDim S8x8 ![] bcast_S_S8x8 main_cst_0
  let main_v6 : IVec S8x8 1 := cmpf .olt main_v4 main_v5
  let main_c_1 : IVec S_ 1 := constantI S_ 1 1#1
  let main_v7 : IVec S_ 1 := (fun x v => Host.reduce IntOp.andi x v reducesTo_S8x8_S_d0_1 h_S_) main_v6 main_c_1
  let main_v8 : IVec S_ 1 := andi main_v3 main_v7
  main_v8
-- ==== Kernel.lean ====
abbrev S800000x8x8 : Shape := ⟨3, ![800000, 8, 8]⟩
abbrev S8x8 : Shape := ⟨2, ![8, 8]⟩
abbrev S400000x128 : Shape := ⟨2, ![400000, 128]⟩
abbrev S64 : Shape := ⟨1, ![64]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S8000x128 : Shape := ⟨2, ![8000, 128]⟩
abbrev S1x1x800000x8x8 : Shape := ⟨5, ![1, 1, 800000, 8, 8]⟩

abbrev nBuf : Space → Nat
  | .hbm => 11
  | .vmem => 5
  | .smem => 0
  | _ => 0

abbrev bufTy : (tb : Table) → Fin (tcTables nBuf tb) → BufTy
  | .hbm, ⟨0, _⟩ => ⟨S800000x8x8, .f32⟩
  | .hbm, ⟨1, _⟩ => ⟨S8x8, .f32⟩
  | .hbm, ⟨2, _⟩ => ⟨S400000x128, .f32⟩
  | .hbm, ⟨3, _⟩ => ⟨S64, .f32⟩
  | .hbm, ⟨4, _⟩ => ⟨S1x64, .f32⟩
  | .hbm, ⟨5, _⟩ => ⟨S2x64, .f32⟩
  | .hbm, ⟨6, _⟩ => ⟨S128, .f32⟩
  | .hbm, ⟨7, _⟩ => ⟨S1x128, .f32⟩
  | .hbm, ⟨8, _⟩ => ⟨S400000x128, .f32⟩
  | .hbm, ⟨9, _⟩ => ⟨S800000x8x8, .f32⟩
  | .hbm, ⟨10, _⟩ => ⟨S1x1x800000x8x8, .f32⟩
  | .local _ .vmem, ⟨0, _⟩ => ⟨S8000x128, .f32⟩
  | .local _ .vmem, ⟨1, _⟩ => ⟨S8000x128, .f32⟩
  | .local _ .vmem, ⟨2, _⟩ => ⟨S1x128, .f32⟩
  | .local _ .vmem, ⟨3, _⟩ => ⟨S8000x128, .f32⟩
  | .local _ .vmem, ⟨4, _⟩ => ⟨S8000x128, .f32⟩
  | _, _ => ⟨S800000x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S800000x8x8_S400000x128 : S800000x8x8.ShapeCasts S400000x128
  shapeCasts_S8x8_S64 : S8x8.ShapeCasts S64
  shapeCasts_S64_S1x64 : S64.ShapeCasts S1x64
  bcast_S1x64_S2x64_0_1 : S1x64.BroadcastsInDim S2x64 (![0, 1] : Fin 2 → Fin S2x64.rank)
  shapeCasts_S2x64_S128 : S2x64.ShapeCasts S128
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  shapeCasts_S400000x128_S800000x8x8 : S400000x128.ShapeCasts S800000x8x8
  bcast_S800000x8x8_S1x1x800000x8x8_2_3_4 : S800000x8x8.BroadcastsInDim S1x1x800000x8x8 (![2, 3, 4] : Fin 3 → Fin S1x1x800000x8x8.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S400000x128.size a
  hwx0_0 : ∀ i : grid0.Coords, EltTy.bits .f32 = 32 ∨ (Rect.block (s := S400000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x128.size a ≤ S400000x128.size a
  hwx0_2 : ∀ i : grid0.Coords, EltTy.bits .f32 = 32 ∨ (Rect.block (s := S400000x128) S8000x128.size (cc0_transform_2 i) (hinb0_2 i)).WholeWords (EltTy.packing .f32)

variable [Facts₀]

abbrev win0_0 : Pipeline.Window sig grid0 :=
  Pipeline.Window.ofSpec (Memref.whole main_v0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S8000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S800000x8x8 : Shape := ⟨3, ![800000, 8, 8]⟩
abbrev S8x8 : Shape := ⟨2, ![8, 8]⟩
abbrev S1x8x8 : Shape := ⟨3, ![1, 8, 8]⟩
abbrev S_ : Shape := ⟨0, ![]⟩
abbrev S1x1x800000x8x8 : Shape := ⟨5, ![1, 1, 800000, 8, 8]⟩

abbrev nBuf : Space → Nat
  | .hbm => 9
  | .vmem => 0
  | .smem => 0
  | _ => 0

abbrev bufTy : (tb : Table) → Fin (tcTables nBuf tb) → BufTy
  | .hbm, ⟨0, _⟩ => ⟨S800000x8x8, .f32⟩
  | .hbm, ⟨1, _⟩ => ⟨S8x8, .f32⟩
  | .hbm, ⟨2, _⟩ => ⟨S1x8x8, .f32⟩
  | .hbm, ⟨3, _⟩ => ⟨S800000x8x8, .f32⟩
  | .hbm, ⟨4, _⟩ => ⟨S800000x8x8, .f32⟩
  | .hbm, ⟨5, _⟩ => ⟨S_, .f32⟩
  | .hbm, ⟨6, _⟩ => ⟨S800000x8x8, .f32⟩
  | .hbm, ⟨7, _⟩ => ⟨S800000x8x8, .f32⟩
  | .hbm, ⟨8, _⟩ => ⟨S1x1x800000x8x8, .f32⟩
  | _, _ => ⟨S800000x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S8x8_S1x8x8_1_2 : S8x8.BroadcastsInDim S1x8x8 (![1, 2] : Fin 2 → Fin S1x8x8.rank)
  bcast_S1x8x8_S800000x8x8_0_1_2 : S1x8x8.BroadcastsInDim S800000x8x8 (![0, 1, 2] : Fin 3 → Fin S800000x8x8.rank)
  bcast_S_S800000x8x8 : S_.BroadcastsInDim S800000x8x8 (![] : Fin 0 → Fin S800000x8x8.rank)
  bcast_S800000x8x8_S1x1x800000x8x8_2_3_4 : S800000x8x8.BroadcastsInDim S1x1x800000x8x8 (![2, 3, 4] : Fin 3 → Fin S1x1x800000x8x8.rank)

variable [Facts₀]

class Facts : Prop extends Facts₀ where

variable [Facts]
-- ==== Proof.Spec.lean ====
/-
  The result both programs are compared with, stated once and over no program.

  The input is 800000 blocks of 8 × 8 numbers and an 8 × 8 table `q`. Every block is multiplied entry by entry by the
  table and one fixed number is added to every product:

      out[0, 0, n, h, w] = x[n, h, w] · q[h, w] + ε        (n < 800000, h < 8, w < 8)

  over the extended reals, where ε is the value of the single-precision word 0x3727C5AC (the float nearest 10⁻⁵). Both
  programs carry that same word, so its value is never computed: it stays the constant `offset` on both sides. The
  formula uses one product and one sum of the same three numbers on both sides, so no law of arithmetic is needed to
  compare them, and in particular nothing about finiteness: the comparison is about WHERE each program finds x[n, h, w]
  and q[h, w].
-/
import Idealize.ShloMosaic.PureOps.Ideal
import Idealize.ShloMosaic.Lib.ValueIdx

noncomputable section

namespace Cert.BlockScale

open Idealize.ShloMosaic Idealize.ShloMosaic.ValueIdx

/-- The blocks: 800000 of them, each 8 × 8. -/
abbrev Blocks : Shape := ⟨3, ![800000, 8, 8]⟩
/-- The table. -/
abbrev Table : Shape := ⟨2, ![8, 8]⟩
/-- The result: the blocks again, under two leading axes of extent one. -/
abbrev Result : Shape := ⟨5, ![1, 1, 800000, 8, 8]⟩

/-- The number added to every product: the value of the single-precision word both programs carry. -/
abbrev offset : EReal := Ideal.ofBits .f32 0x3727C5AC#32

/-- Entry (h, w) of block n of the result. -/
def scaledAt (x : Blocks.Idx → EReal) (q : Table.Idx → EReal) (n : Fin 800000) (h w : Fin 8) : EReal :=
  x (ix3 n h w) * q (ix2 h w) + offset

/-- The whole result: at an index (·, ·, n, h, w), entry (h, w) of block n. -/
def scaled (x : Blocks.Idx → EReal) (q : Table.Idx → EReal) : Result.Idx → EReal := fun i =>
  scaledAt x q ⟨(i 2).val, (i 2).isLt⟩ ⟨(i 3).val, (i 3).isLt⟩ ⟨(i 4).val, (i 4).isLt⟩

end Cert.BlockScale

end
-- ==== Proof.PlainValue.lean ====
/-
  The plain program computes the specification directly: it repeats the table over all 800000 blocks, multiplies,
  adds the fixed number, and puts two leading axes of extent one in front. Read at an index (·, ·, n, h, w), each of its
  steps reads its operand at the same (n, h, w), the repeated table at (h, w): the result is
  x[n, h, w] · q[h, w] + ε, which is the specification's entry.
-/
import proofs.«164728_j27616639714076_2_alg».proof.Proof.Gen.ReferenceIdeal.Read
import proofs.«164728_j27616639714076_2_alg».proof.Proof.Spec

noncomputable section

namespace Cert.BlockScale.Plain

open Idealize.ShloMosaic Idealize.ShloMosaic.ValueIdx
open Cert.ReferenceIdeal Cert.ReferenceIdeal.Gen Cert.ReferenceIdeal.Read

/-- The plain program's result, as a function of its two arguments, is the specification. -/
theorem result_eq (x : S800000x8x8.Idx → EReal) (q : S8x8.Idx → EReal) :
    val_main_v5 (F := Ideal) x q = Cert.BlockScale.scaled x q := by
  funext i
  -- the blocks are read at (n, h, w) …
  have eb : idx_main_v5 i = ix3 (⟨(i 2).val, (i 2).isLt⟩ : Fin 800000) (⟨(i 3).val, (i 3).isLt⟩ : Fin 8) (⟨(i 4).val, (i 4).isLt⟩ : Fin 8) :=
    funext fun a => by match a with | ⟨0, _⟩ => rfl | ⟨1, _⟩ => rfl | ⟨2, _⟩ => rfl
  -- … and the table, repeated over the blocks, at (h, w)
  have et : idx_main_v0 (idx_main_v1 (idx_main_v5 i)) = ix2 (⟨(i 3).val, (i 3).isLt⟩ : Fin 8) (⟨(i 4).val, (i 4).isLt⟩ : Fin 8) :=
    funext fun a => by match a with | ⟨0, _⟩ => rfl | ⟨1, _⟩ => rfl
  rw [val_main_v5_apply, val_main_v4_apply, val_main_v2_apply, val_main_v3_apply, val_main_cst_apply, val_main_v1_apply,
    val_main_v0_apply, et, eb]
  rfl

end Cert.BlockScale.Plain

end
-- ==== Proof.TileValue.lean ====
/-
  What the tiled program's body computes on one tile. A tile is 8000 rows of 128 lanes; the body multiplies every row
  by the one row of 128 table lanes it is given and adds the fixed number to every product. At row p and lane l:

      tile[p, l] · lanes[0, l] + ε.
-/
import proofs.«164728_j27616639714076_2_alg».proof.Proof.Gen.KernelIdeal.Skeleton
import Idealize.ShloMosaic.Lib.Pipeline.Value
import Idealize.ShloMosaic.Lib.ValueIdx
import proofs.«164728_j27616639714076_2_alg».proof.Proof.Spec

noncomputable section

namespace Cert.BlockScale.Tiled

open Idealize.ShloMosaic Idealize.ShloMosaic.ValueIdx
open Cert.KernelIdeal Cert.KernelIdeal.Gen

/-- The body's one stored value at row p, lane l of the tile. -/
theorem tile_apply (x0 : Vec Ideal S8000x128 .f32) (x1 : Vec Ideal S1x128 .f32) (p : Fin 8000) (l : Fin 128) :
    k0_pay1 (F := Ideal) x0 x1 (ix2 p l) = x0 (ix2 p l) * x1 (ix2 (0 : Fin 1) l) + Cert.BlockScale.offset := by
  unfold k0_pay1
  rw [shapeCast_self, shapeCast_self]
  -- the row of lanes is repeated down the 8000 rows
  have hrow : broadcastTo S8000x128 x1 broadcasts_S1x128_S8000x128 (ix2 p l) = x1 (ix2 (0 : Fin 1) l) :=
    broadcastTo_apply x1 broadcasts_S1x128_S8000x128 (ix2 p l) (ix2 (0 : Fin 1) l) (fun a => match a with
      | ⟨0, _⟩ => by show (0 : Nat) = if (1 : Nat) = 1 then 0 else _; rw [if_pos rfl]
      | ⟨1, _⟩ => by show l.val = if (128 : Nat) = 1 then 0 else l.val; rw [if_neg (by decide)])
  show x0 (ix2 p l) * broadcastTo S8000x128 x1 broadcasts_S1x128_S8000x128 (ix2 p l) + Cert.BlockScale.offset = _
  rw [hrow]

end Cert.BlockScale.Tiled

end
-- ==== Proof.TiledArray.lean ====
/-
  What the tiled program's one region leaves in its output array. The array of 400000 rows of 128 lanes is cut into
  50 tiles of 8000 rows; grid point t is given tile t of the input rows and, at every point, the same one row of 128
  table lanes, and writes tile t of the output. So row r of the output is written by point r / 8000 and by no other, and
  every row is written: after the region the output array holds, at row r and lane l,

      rows[r, l] · lanes[0, l] + ε,

  whatever it held before (it started as a copy of the input rows; every entry of the copy is overwritten).
-/
import proofs.«164728_j27616639714076_2_alg».proof.Proof.Gen.KernelIdeal.Frame
import proofs.«164728_j27616639714076_2_alg».proof.Proof.TileValue
import Idealize.ShloMosaic.Lib.Pipeline.Value

noncomputable section

namespace Cert.BlockScale.Tiled

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- Every row multiplied lane by lane by the one row of lanes, the fixed number added. -/
def rowsScaled (a : S400000x128.Idx → EReal) (b : S1x128.Idx → EReal) : S400000x128.Idx → EReal := fun j =>
  a j * b (ix2 (0 : Fin 1) (⟨(j 1).val, (j 1).isLt⟩ : Fin 128)) + Cert.BlockScale.offset

/-- `rowsScaled` at an index, from the entry of the rows at that index and the entry of the lanes at row 0 and the
    index's lane. -/
theorem rowsScaled_at (a : S400000x128.Idx → EReal) (b : S1x128.Idx → EReal) (i i0 : S400000x128.Idx) (i1 : S1x128.Idx)
    (h0 : i0 = i) (h10 : (i1 0).val = 0) (h11 : (i1 1).val = (i 1).val) :
    a i0 * b i1 + Cert.BlockScale.offset = rowsScaled a b i := by
  subst h0
  have e : i1 = ix2 (0 : Fin 1) (⟨(i0 1).val, (i0 1).isLt⟩ : Fin 128) :=
    funext fun d => Fin.ext (by match d with | ⟨0, _⟩ => exact h10 | ⟨1, _⟩ => exact h11)
  rw [e]
  rfl

theorem zero_offsets : (![0, 0] : Fin 2 → Nat) = fun _ => 0 := funext fun a => by fin_cases a <;> rfl

/-- Which tile each window is on at grid point t: the input rows and the output on tile t, the lanes always on their
    one row. -/
theorem tile_of_point : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is tile t of `rowsScaled` of the input rows and the lanes as the region finds them. -/
theorem flushed_eq (c : Dev nD) (t : Fin cfg0.N) :
    (dats m 0 c).flushed 2 t
      = ((cfg0.win 2).blk t).view.read (Elt Ideal) (rowsScaled (V m c main_v0) (V m c main_v5)) := by
  show (cfg0.win 2).cut (grid0.coords t) ((dats m 0 c).after 2 t) = _
  rw [after0_2]
  unfold out0_2
  rw [View.canon_unit_zero zero_offsets]
  simp only [View.ld_unit_zero (S := S8000x128) zero_offsets, View.ld_unit_zero (S := S1x128) zero_offsets]
  obtain ⟨e0, e1, e2, e3, e4, e5⟩ := tile_of_point t
  funext j
  obtain ⟨p, l, rfl⟩ : ∃ (p : Fin 8000) (l : Fin 128), j = ix2 p l := ⟨j 0, j 1, eq_ix2 j⟩
  show k0_pay1 (F := Ideal) (iblk m c 0 t) (iblk m c 1 t) (ix2 p l)
    = rowsScaled (V m c main_v0) (V m c main_v5) (((cfg0.win 2).blk t).view.emb (ix2 p l))
  refine (tile_apply (iblk m c 0 t) (iblk m c 1 t) p l).trans ?_
  refine rowsScaled_at (V m c main_v0) (V m c main_v5) (((cfg0.win 2).blk t).view.emb (ix2 p l))
    (((cfg0.win 0).blk t).view.emb (ix2 p l)) (((cfg0.win 1).blk t).view.emb (ix2 (0 : Fin 1) l)) ?_ ?_ ?_
  · funext a; apply Fin.ext
    match a with
    | ⟨0, _⟩ => show win0_0.index t (0 : Fin 2) * 8000 + 1 * p.val = win0_2.index t (0 : Fin 2) * 8000 + 1 * p.val; omega
    | ⟨1, _⟩ => show win0_0.index t (1 : Fin 2) * 128 + 1 * l.val = win0_2.index t (1 : Fin 2) * 128 + 1 * l.val; omega
  · show win0_1.index t (0 : Fin 2) * 1 + 1 * 0 = 0; omega
  · show win0_1.index t (1 : Fin 2) * 128 + 1 * l.val = win0_2.index t (1 : Fin 2) * 128 + 1 * l.val; omega

/-- An index of the output array is in point t's tile iff each coordinate is in the tile's range on its axis. -/
theorem mem_tile (t : Fin cfg0.N) (i : S400000x128.Idx) :
    i ∈ ((cfg0.win 2).blk t).view.set ↔ ∀ a : Fin 2, win0_2.index t a * S8000x128.size a ≤ (i a).val
      ∧ (i a).val < win0_2.index t a * S8000x128.size a + S8000x128.size a := by
  show i ∈ ((View.whole main_v6).slice (win0_2.rect t)).set ↔ _
  rw [View.set_slice_whole, Rect.mem_set_unit]
  exact Iff.rfl

/-- Every index of the output array is in the tile of the point its row falls to. -/
theorem every_row_written (i : S400000x128.Idx) :
    ∃ t : Fin cfg0.N, (cfg0.win 2).flush t = true ∧ i ∈ ((cfg0.win 2).blk t).view.set := by
  have hi0 : (i 0).val < 400000 := (i 0).isLt
  have hi1 : (i 1).val < 128 := (i 1).isLt
  have hN : cfg0.N = 50 := N_0
  have hlt : (i 0).val / 8000 < cfg0.N := by rw [hN]; omega
  obtain ⟨-, -, -, -, e4, e5⟩ := tile_of_point ⟨(i 0).val / 8000, hlt⟩
  have e4' : win0_2.index ⟨(i 0).val / 8000, hlt⟩ (0 : Fin 2) = (i 0).val / 8000 := e4
  refine ⟨⟨(i 0).val / 8000, hlt⟩, flush0_2 _, ?_⟩
  rw [mem_tile]
  intro a
  match a with
  | ⟨0, _⟩ =>
    show win0_2.index ⟨(i 0).val / 8000, hlt⟩ (0 : Fin 2) * 8000 ≤ (i 0).val
      ∧ (i 0).val < win0_2.index ⟨(i 0).val / 8000, hlt⟩ (0 : Fin 2) * 8000 + 8000
    omega
  | ⟨1, _⟩ =>
    show win0_2.index ⟨(i 0).val / 8000, hlt⟩ (1 : Fin 2) * 128 ≤ (i 1).val
      ∧ (i 1).val < win0_2.index ⟨(i 0).val / 8000, hlt⟩ (1 : Fin 2) * 128 + 128
    omega

/-- The output array after the region. -/
theorem output_eq (c : Dev nD) :
    (dats m 0 c).arrAt 2 cfg0.N = rowsScaled (V m c main_v0) (V m c main_v5) :=
  (dats m 0 c).arrAt_eq_of_cover 2 (rowsScaled (V m c main_v0) (V m c main_v5)) (fun t _ => flushed_eq m c t)
    every_row_written

end Cert.BlockScale.Tiled

end
-- ==== Proof.HostSteps.lean ====
/-
  The steps the tiled program takes outside its region, read as they are.

  Before the region it regroups the blocks into 400000 rows of 128 lanes, and lays the table out along one row of 128
  lanes (flattened to 64, as one row, that row twice, the two copies in one line of 128, the line as a row). These are
  what the region finds as its input rows and its lanes. After the region it regroups the output rows back into
  800000 blocks of 8 × 8 and puts two leading axes of extent one in front.
-/
import proofs.«164728_j27616639714076_2_alg».proof.Proof.Gen.KernelIdeal.Frame
import Idealize.ShloMosaic.Lib.Pipeline.Value
import Idealize.ShloMosaic.Lib.StableHlo.Run
import Idealize.ShloMosaic.PureOps.Ideal

noncomputable section

namespace Cert.BlockScale.Tiled

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The input rows the region finds: the blocks regrouped into rows of 128. -/
theorem rows_in (c : Dev nD) : (V m c main_v0 : S400000x128.Idx → EReal)
    = shapeCast S400000x128 (m ((c : Thread nD τ).loc main_arg0)) shapeCasts_S800000x8x8_S400000x128 := by
  show StableHlo.after hostOps0 (fun b => m (c, b)) (Proc.devRef .tc main_v0) = _
  after_results
  rfl

/-- The lanes the region finds: the table flattened, repeated twice, flattened again, as a row of 128. -/
theorem lanes_in (c : Dev nD) : (V m c main_v5 : S1x128.Idx → EReal)
    = shapeCast S1x128 (shapeCast S128 (broadcastInDim S2x64 ![0, 1] bcast_S1x64_S2x64_0_1
        (shapeCast S1x64 (shapeCast S64 (m ((c : Thread nD τ).loc main_arg1)) shapeCasts_S8x8_S64) shapeCasts_S64_S1x64))
        shapeCasts_S2x64_S128) shapeCasts_S128_S1x128 := by
  show StableHlo.after hostOps0 (fun b => m (c, b)) (Proc.devRef .tc main_v5) = _
  after_results
  rfl

/-- The program's result: the region's output rows regrouped into blocks, under two leading axes of extent one. -/
theorem result_out (c : Dev nD) : Pipeline.afterTail₀ cfgs (dats m) 0 (V0 m) [hostOps1] c main_v8
    = broadcastInDim S1x1x800000x8x8 ![2, 3, 4] bcast_S800000x8x8_S1x1x800000x8x8_2_3_4
        (shapeCast S800000x8x8 ((dats m 0 c).arrAt 2 cfg0.N) shapeCasts_S400000x128_S800000x8x8) := by
  unfold Pipeline.afterTail₀
  show StableHlo.after hostOps1 _ (Proc.devRef .tc main_v8) = _
  after_results
  have hw : Pipeline.withArrays (cfgs 0).spec c (V0 m c) (fun w => (dats m 0 c).arrAt w (cfgs 0).N) (Proc.devRef .tc main_v6)
      = (dats m 0 c).arrAt 2 cfg0.N := Pipeline.withArrays_arr spec0 launch0.win.arr_inj c _ _ 2
  rw [hw]
  rfl

end Cert.BlockScale.Tiled

end
-- ==== Proof.Layout.lean ====
/-
  Where an entry sits after the re-groupings the tiled program makes. Nothing here is about numbers: every statement
  is about positions, for entries of any type.

  Row-major order is the thread through all of it. A re-grouping (a reshape) keeps every entry at its row-major
  position, so entry (n, h, w) of the 800000 × 8 × 8 blocks, at position 64 n + 8 h + w, is entry (r, l) of the
  400000 × 128 array exactly when 64 n + 8 h + w = 128 r + l: a row of 128 holds two consecutive blocks, block n sits in
  row n / 2, and within the row at lanes 64 (n mod 2) + 8 h + w.

  The table is laid out along a row of 128 lanes the same way: flattened to 64 entries (entry 8 h + w is q[h, w]),
  repeated twice, and flattened again, so lane l holds entry l mod 64 of the flattened table, that is
  q[(l mod 64) / 8, l mod 8]. On the lanes of block n's entry (h, w) this is q[h, w] again, whichever half of the row
  the block is in: this is why multiplying a row of two blocks by the doubled table multiplies each block by the table.
-/
import Idealize.ShloMosaic.Lib.Pipeline.Value
import Idealize.ShloMosaic.Lib.ValueIdx
import proofs.«164728_j27616639714076_2_alg».proof.Proof.Spec

noncomputable section

namespace Cert.BlockScale

open Idealize.ShloMosaic Idealize.ShloMosaic.ValueIdx

/-- The blocks regrouped into rows of 128 lanes. -/
abbrev Rows : Shape := ⟨2, ![400000, 128]⟩
/-- The table flattened. -/
abbrev Flat64 : Shape := ⟨1, ![64]⟩
/-- The flattened table as one row. -/
abbrev Row64 : Shape := ⟨2, ![1, 64]⟩
/-- That row twice. -/
abbrev Twice64 : Shape := ⟨2, ![2, 64]⟩
/-- The two copies in one line of 128. -/
abbrev Flat128 : Shape := ⟨1, ![128]⟩
/-- The line as a row of 128 lanes. -/
abbrev Row128 : Shape := ⟨2, ![1, 128]⟩

variable {α : Type}

/-- Blocks regrouped into rows: entry (r, l) of the rows is entry (n, h, w) of the blocks when the two have one
    row-major position. -/
theorem rows_apply (x : Blocks.Idx → α) (hc : Blocks.ShapeCasts Rows) (r : Fin 400000) (l : Fin 128)
    (n : Fin 800000) (h w : Fin 8) (e : n.val * 64 + h.val * 8 + w.val = r.val * 128 + l.val) :
    shapeCast Rows x hc (ix2 r l) = x (ix3 n h w) :=
  shapeCast_apply x hc (ix2 r l) (ix3 n h w) (by
    rw [Shape.rowMajor_val_three, Shape.rowMajor_val_two]
    show (n.val * 8 + h.val) * 8 + w.val = r.val * 128 + l.val
    omega)

/-- Rows regrouped back into blocks: the same correspondence read the other way. -/
theorem blocks_apply (y : Rows.Idx → α) (hc : Rows.ShapeCasts Blocks) (r : Fin 400000) (l : Fin 128)
    (n : Fin 800000) (h w : Fin 8) (e : n.val * 64 + h.val * 8 + w.val = r.val * 128 + l.val) :
    shapeCast Blocks y hc (ix3 n h w) = y (ix2 r l) :=
  shapeCast_apply y hc (ix3 n h w) (ix2 r l) (by
    rw [Shape.rowMajor_val_three, Shape.rowMajor_val_two]
    show r.val * 128 + l.val = (n.val * 8 + h.val) * 8 + w.val
    omega)

/-- Two leading axes of extent one added in front of the blocks: the entry at (·, ·, n, h, w) is the entry at (n, h, w). -/
theorem lead_apply (z : Blocks.Idx → α) (hb : Blocks.BroadcastsInDim Result (![2, 3, 4] : Fin 3 → Fin Result.rank))
    (i : Result.Idx) :
    broadcastInDim Result ![2, 3, 4] hb z i
      = z (ix3 ⟨(i 2).val, (i 2).isLt⟩ ⟨(i 3).val, (i 3).isLt⟩ ⟨(i 4).val, (i 4).isLt⟩) :=
  broadcastInDim_apply _ hb z i _ (fun a => match a with
    | ⟨0, _⟩ => by show (i 2).val = if (800000 : Nat) = 1 then 0 else (i 2).val; rw [if_neg (by decide)]
    | ⟨1, _⟩ => by show (i 3).val = if (8 : Nat) = 1 then 0 else (i 3).val; rw [if_neg (by decide)]
    | ⟨2, _⟩ => by show (i 4).val = if (8 : Nat) = 1 then 0 else (i 4).val; rw [if_neg (by decide)])

/-- The table along a row of 128 lanes: flattened, repeated twice, flattened again. Lane l holds q[h, w] when
    l mod 64 = 8 h + w. -/
theorem lanes_apply (q : Table.Idx → α) (h1 : Table.ShapeCasts Flat64) (h2 : Flat64.ShapeCasts Row64)
    (hb : Row64.BroadcastsInDim Twice64 (![0, 1] : Fin 2 → Fin Twice64.rank)) (h3 : Twice64.ShapeCasts Flat128)
    (h4 : Flat128.ShapeCasts Row128) (l : Fin 128) (h w : Fin 8) (e : l.val % 64 = h.val * 8 + w.val) :
    shapeCast Row128 (shapeCast Flat128 (broadcastInDim Twice64 ![0, 1] hb (shapeCast Row64 (shapeCast Flat64 q h1) h2)) h3) h4
        (ix2 (0 : Fin 1) l)
      = q (ix2 h w) := by
  have hl : l.val < 128 := l.isLt
  -- the row of 128 is the line of 128
  refine (shapeCast_apply _ h4 (ix2 (0 : Fin 1) l) (ix1 l) (by
    rw [Shape.rowMajor_val_one, Shape.rowMajor_val_two]
    show l.val = 0 * 128 + l.val
    omega)).trans ?_
  -- lane l of the line is entry l mod 64 of copy l / 64
  refine (shapeCast_apply _ h3 (ix1 l) (ix2 (⟨l.val / 64, by omega⟩ : Fin 2) (⟨l.val % 64, by omega⟩ : Fin 64)) (by
    rw [Shape.rowMajor_val_one, Shape.rowMajor_val_two]
    show l.val / 64 * 64 + l.val % 64 = l.val
    omega)).trans ?_
  -- both copies are the one row
  refine (broadcastInDim_apply _ hb _ (ix2 (⟨l.val / 64, by omega⟩ : Fin 2) (⟨l.val % 64, by omega⟩ : Fin 64))
    (ix2 (0 : Fin 1) (⟨l.val % 64, by omega⟩ : Fin 64)) (fun a => match a with
      | ⟨0, _⟩ => by show (0 : Nat) = if (1 : Nat) = 1 then 0 else l.val / 64; rw [if_pos rfl]
      | ⟨1, _⟩ => by show l.val % 64 = if (64 : Nat) = 1 then 0 else l.val % 64; rw [if_neg (by decide)])).trans ?_
  -- the row of 64 is the flattened table
  refine (shapeCast_apply _ h2 (ix2 (0 : Fin 1) (⟨l.val % 64, by omega⟩ : Fin 64)) (ix1 (⟨l.val % 64, by omega⟩ : Fin 64)) (by
    rw [Shape.rowMajor_val_one, Shape.rowMajor_val_two]
    show l.val % 64 = 0 * 64 + l.val % 64
    omega)).trans ?_
  -- entry 8 h + w of the flattened table is q[h, w]
  exact shapeCast_apply q h1 (ix1 (⟨l.val % 64, by omega⟩ : Fin 64)) (ix2 h w) (by
    rw [Shape.rowMajor_val_one, Shape.rowMajor_val_two]
    show h.val * 8 + w.val = l.val % 64
    omega)

end Cert.BlockScale

end
-- ==== Proof.TiledValue.lean ====
/-
  The tiled program computes the specification.

  Its result at (·, ·, n, h, w) is entry (n, h, w) of the output rows regrouped into blocks, that is entry (r, l) of
  the output rows with 128 r + l = 64 n + 8 h + w: r = n / 2 and l = 64 (n mod 2) + 8 h + w. The region left there

      rows[r, l] · lanes[0, l] + ε.

  The input rows are the blocks regrouped the same way, so rows[r, l] = x[n, h, w]; and lane l of the table laid out
  along 128 lanes is q[(l mod 64) / 8, l mod 8], where l mod 64 = 8 h + w whichever half of the row block n is in, so
  lanes[0, l] = q[h, w]. Hence the entry is x[n, h, w] · q[h, w] + ε.
-/
import proofs.«164728_j27616639714076_2_alg».proof.Proof.TiledArray
import proofs.«164728_j27616639714076_2_alg».proof.Proof.HostSteps
import proofs.«164728_j27616639714076_2_alg».proof.Proof.Layout

noncomputable section

namespace Cert.BlockScale.Tiled

open Idealize.ShloMosaic Idealize.ShloMosaic.TcCoe Idealize.SL.Sem Idealize.ShloMosaic.ValueIdx
open Idealize.ShloMosaic.Pipeline (Dat)
open Cert.KernelIdeal Cert.KernelIdeal.Gen

/-- The three steps composed, over any blocks and any table: regroup into rows and lay the table along the lanes,
    multiply and add row by row, regroup back under two leading axes — the specification. -/
theorem steps_eq (x : S800000x8x8.Idx → EReal) (q : S8x8.Idx → EReal) :
    broadcastInDim S1x1x800000x8x8 ![2, 3, 4] bcast_S800000x8x8_S1x1x800000x8x8_2_3_4
        (shapeCast S800000x8x8
          (rowsScaled (shapeCast S400000x128 x shapeCasts_S800000x8x8_S400000x128)
            (shapeCast S1x128 (shapeCast S128 (broadcastInDim S2x64 ![0, 1] bcast_S1x64_S2x64_0_1
              (shapeCast S1x64 (shapeCast S64 q shapeCasts_S8x8_S64) shapeCasts_S64_S1x64))
              shapeCasts_S2x64_S128) shapeCasts_S128_S1x128))
          shapeCasts_S400000x128_S800000x8x8)
      = Cert.BlockScale.scaled x q := by
  funext i
  have hn : (i 2).val < 800000 := (i 2).isLt
  have hh : (i 3).val < 8 := (i 3).isLt
  have hw : (i 4).val < 8 := (i 4).isLt
  -- the row and the lane where block n's entry (h, w) sits
  have hr : (i 2).val / 2 < 400000 := by omega
  have hl : (i 2).val % 2 * 64 + (i 3).val * 8 + (i 4).val < 128 := by omega
  have e : (i 2).val * 64 + (i 3).val * 8 + (i 4).val
      = (i 2).val / 2 * 128 + ((i 2).val % 2 * 64 + (i 3).val * 8 + (i 4).val) := by omega
  have e' : ((i 2).val % 2 * 64 + (i 3).val * 8 + (i 4).val) % 64 = (i 3).val * 8 + (i 4).val := by omega
  refine (Cert.BlockScale.lead_apply _ bcast_S800000x8x8_S1x1x800000x8x8_2_3_4 i).trans ?_
  refine (Cert.BlockScale.blocks_apply _ shapeCasts_S400000x128_S800000x8x8 ⟨(i 2).val / 2, hr⟩
    ⟨(i 2).val % 2 * 64 + (i 3).val * 8 + (i 4).val, hl⟩ ⟨(i 2).val, hn⟩ ⟨(i 3).val, hh⟩ ⟨(i 4).val, hw⟩ e).trans ?_
  refine (rowsScaled_at _ _ (ix2 (⟨(i 2).val / 2, hr⟩ : Fin 400000) (⟨(i 2).val % 2 * 64 + (i 3).val * 8 + (i 4).val, hl⟩ : Fin 128))
    (ix2 (⟨(i 2).val / 2, hr⟩ : Fin 400000) (⟨(i 2).val % 2 * 64 + (i 3).val * 8 + (i 4).val, hl⟩ : Fin 128))
    (ix2 (0 : Fin 1) (⟨(i 2).val % 2 * 64 + (i 3).val * 8 + (i 4).val, hl⟩ : Fin 128)) rfl rfl rfl).symm.trans ?_
  rw [Cert.BlockScale.rows_apply x shapeCasts_S800000x8x8_S400000x128 ⟨(i 2).val / 2, hr⟩
      ⟨(i 2).val % 2 * 64 + (i 3).val * 8 + (i 4).val, hl⟩ ⟨(i 2).val, hn⟩ ⟨(i 3).val, hh⟩ ⟨(i 4).val, hw⟩ e,
    Cert.BlockScale.lanes_apply q shapeCasts_S8x8_S64 shapeCasts_S64_S1x64 bcast_S1x64_S2x64_0_1 shapeCasts_S2x64_S128
      shapeCasts_S128_S1x128 ⟨(i 2).val % 2 * 64 + (i 3).val * 8 + (i 4).val, hl⟩ ⟨(i 3).val, hh⟩ ⟨(i 4).val, hw⟩ e']
  rfl

variable (m : (ℓ : Loc nD τ sig) → Buf (Elt Ideal) ℓ) (ρ : Dev nD → PrngReg)

/-- The tiled program's result, from the memory it is launched on, is the specification of its two arguments. -/
theorem result_eq (c : Dev nD) :
    Pipeline.afterTail₀ cfgs (dats m) 0 (V0 m) [hostOps1] c main_v8
      = Cert.BlockScale.scaled (m ((c : Thread nD τ).loc main_arg0)) (m ((c : Thread nD τ).loc main_arg1)) := by
  rw [result_out, output_eq, rows_in, lanes_in]
  exact steps_eq _ _

/-- Every weakly fair execution of the tiled program terminates, with its result at the specification of its
    arguments and the arguments unchanged. -/
theorem run : θ_run defs (onTc (τ := τ) (main (F := Ideal))) ⟨m, fun _ => 0, ρ⟩ fun r => ∀ c : Dev nD,
      r.2.mem ((c.tc : Thread nD τ).loc main_v8)
        = Cert.BlockScale.scaled (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v8 (Pipeline.mem_restRefs_of main_v8 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.BlockScale.Tiled

end
-- ==== Proof.lean ====
/-
  Two programs for one computation, compared over the extended reals.

  Both take 800000 blocks of 8 × 8 numbers and an 8 × 8 table, multiply every block entry by entry by the table and
  add one fixed number (the float nearest 10⁻⁵) to every product. The plain program does exactly that. The tiled
  program regroups the blocks into 400000 rows of 128 lanes (two blocks to a row), lays the table out twice along 128
  lanes, and runs through the rows in 50 tiles of 8000, multiplying each row by the lanes and adding the number; then it
  regroups the rows back into blocks.

  The two agree entry by entry because regrouping keeps row-major positions: entry (h, w) of block n sits at row n / 2,
  lane 64 (n mod 2) + 8 h + w, and the table lane there is q[h, w] in either half of the row. Each side then forms the
  same product and the same sum of the same numbers, so no law of arithmetic, and nothing about finiteness, is used:
  the precondition is never opened.

  The modules: Spec (the result, over no program), Layout (where entries sit after each regrouping), PlainValue (the
  plain program is the specification), TileValue (the body on one tile), TiledArray (the output array after all 50
  tiles), HostSteps (the regroupings before and after), TiledValue (the tiled program is the specification). Below, the
  three termination-and-frame claims, the (empty) list of idealizing rewrites, and the equality of results.
-/
import proofs.«164728_j27616639714076_2_alg».proof.Defs
import proofs.«164728_j27616639714076_2_alg».proof.Proof.Gen.Kernel
import proofs.«164728_j27616639714076_2_alg».proof.Proof.Gen.Kernel.Skeleton
import proofs.«164728_j27616639714076_2_alg».proof.Proof.Gen.Kernel.Launch
import proofs.«164728_j27616639714076_2_alg».proof.Proof.Gen.Kernel.Points
import proofs.«164728_j27616639714076_2_alg».proof.Proof.Gen.Kernel.Frame
import proofs.«164728_j27616639714076_2_alg».proof.Proof.Gen.KernelIdeal
import proofs.«164728_j27616639714076_2_alg».proof.Proof.Gen.KernelIdeal.Skeleton
import proofs.«164728_j27616639714076_2_alg».proof.Proof.Gen.KernelIdeal.Launch
import proofs.«164728_j27616639714076_2_alg».proof.Proof.Gen.KernelIdeal.Points
import proofs.«164728_j27616639714076_2_alg».proof.Proof.Gen.KernelIdeal.Frame
import proofs.«164728_j27616639714076_2_alg».proof.Proof.Gen.ReferenceIdeal
import proofs.«164728_j27616639714076_2_alg».proof.Proof.Gen.Pre_finite_inputs
import proofs.«164728_j27616639714076_2_alg».proof.Proof.Gen.ReferenceIdeal.Run
import proofs.«164728_j27616639714076_2_alg».proof.Proof.Gen.ReferenceIdeal.Read
import proofs.«164728_j27616639714076_2_alg».proof.Proof.PlainValue
import proofs.«164728_j27616639714076_2_alg».proof.Proof.TiledValue
import Idealize.ShloMosaic.Adequacy
import Idealize.ShloMosaic.Init

noncomputable section

namespace Cert.Proof

open Idealize.ShloMosaic Idealize.ShloMosaic.TcCoe Idealize.SL.Sem

/-- The tiled program as printed terminates, faults nowhere and leaves its arguments as they were. -/
theorem frame_tiled_words : Cert.frame_Kernel := fun m ρ _ => Cert.Kernel.Gen.frame m ρ

/-- So does the tiled program read over the extended reals. -/
theorem frame_tiled : Cert.frame_KernelIdeal := fun m ρ _ => Cert.KernelIdeal.Gen.frame m ρ

/-- So does the plain program: its run, with the statement about its result dropped. -/
theorem frame_plain : Cert.frame_ReferenceIdeal := fun m ρ _ =>
  (θ_run Cert.ReferenceIdeal.defs _ _).mono (fun _ h c => (h c).2) (Cert.ReferenceIdeal.Value.run (F := Ideal) m ρ)

/-- Reading the tiled program over the extended reals rewrote none of its operations: there is nothing to justify. -/
theorem preserves : Cert.preserves_Kernel_KernelIdeal := trivial

/-- From memories that agree on the two arguments both programs terminate with the specification of those arguments
    as their result, the arguments unchanged. -/
theorem algebraic : Cert.algebraic_KernelIdeal_ReferenceIdeal := by
  intro m ρ m' ρ' _ hagree
  refine ⟨fun c => Cert.BlockScale.scaled (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.BlockScale.Tiled.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v5_eq _ _).trans (Cert.BlockScale.Plain.result_eq _ _)

theorem claim : Cert.Claim := ⟨Cert.Kernel.Gen.facts, Cert.KernelIdeal.Gen.facts, Cert.ReferenceIdeal.Gen.facts, Cert.Pre_finite_inputs.Gen.facts,
  frame_tiled_words, frame_tiled, frame_plain, preserves, algebraic⟩

end Cert.Proof

end
